-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_inv_10" .f32 0xBDCCCCCD#32 ((-1 / 10 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2 : Shape := ⟨3, ![8, 2048, 2]⟩
abbrev S8x2048x2048 : Shape := ⟨3, ![8, 2048, 2048]⟩
abbrev S_ : Shape := ⟨0, ![]⟩

class Facts : Prop where
  bcast_S_S8x2048x2 : S_.BroadcastsInDim S8x2048x2 (![] : Fin 0 → Fin S8x2048x2.rank)
  reducesTo_S8x2048x2_S_d0_1_2 : S8x2048x2.ReducesTo [0, 1, 2] S_
  h_S_ : 0 < S_.numel

variable [Facts]

def fn {F : FTy → Type} [FloatOps F] (main_arg0 : FVec F S8x2048x2 .f32) (main_arg1 : FVec F S8x2048x2 .f32) (main_arg2 : IVec S8x2048x2048 32) : IVec S_ 1 :=
  let main_v0 : FVec F S8x2048x2 .f32 := Host.absf main_arg0
  let main_cst : FVec F S_ .f32 := constant S_ .f32 0x7F800000#32
  let main_v1 : FVec F S8x2048x2 .f32 := broadcastInDim S8x2048x2 ![] bcast_S_S8x2048x2 main_cst
  let main_v2 : IVec S8x2048x2 1 := cmpf .olt main_v0 main_v1
  let main_c : IVec S_ 1 := constantI S_ 1 1#1
  let main_v3 : IVec S_ 1 := (fun x v => Host.reduce IntOp.andi x v reducesTo_S8x2048x2_S_d0_1_2 h_S_) main_v2 main_c
  let main_v4 : FVec F S8x2048x2 .f32 := Host.absf main_arg1
  let main_cst_0 : FVec F S_ .f32 := constant S_ .f32 0x7F800000#32
  let main_v5 : FVec F S8x2048x2 .f32 := broadcastInDim S8x2048x2 ![] bcast_S_S8x2048x2 main_cst_0
  let main_v6 : IVec S8x2048x2 1 := cmpf .olt main_v4 main_v5
  let main_c_1 : IVec S_ 1 := constantI S_ 1 1#1
  let main_v7 : IVec S_ 1 := (fun x v => Host.reduce IntOp.andi x v reducesTo_S8x2048x2_S_d0_1_2 h_S_) main_v6 main_c_1
  let main_v8 : IVec S_ 1 := andi main_v3 main_v7
  main_v8
-- ==== Kernel.lean ====
abbrev S8x2048x2 : Shape := ⟨3, ![8, 2048, 2]⟩
abbrev S8x2048x2048 : Shape := ⟨3, ![8, 2048, 2048]⟩
abbrev S8x2x2048 : Shape := ⟨3, ![8, 2, 2048]⟩
abbrev S8x8x128 : Shape := ⟨3, ![8, 8, 128]⟩
abbrev S1x512x2 : Shape := ⟨3, ![1, 512, 2]⟩
abbrev S1x2x2048 : Shape := ⟨3, ![1, 2, 2048]⟩
abbrev S1x512x2048 : Shape := ⟨3, ![1, 512, 2048]⟩
abbrev S1x8x128 : Shape := ⟨3, ![1, 8, 128]⟩
abbrev S8x128 : Shape := ⟨2, ![8, 128]⟩
abbrev S512x2 : Shape := ⟨2, ![512, 2]⟩
abbrev S2x2048 : Shape := ⟨2, ![2, 2048]⟩
abbrev S512x2048 : Shape := ⟨2, ![512, 2048]⟩
abbrev S512x1 : Shape := ⟨2, ![512, 1]⟩
abbrev S1x2048 : Shape := ⟨2, ![1, 2048]⟩
abbrev S512 : Shape := ⟨1, ![512]⟩
abbrev S1 : Shape := ⟨1, ![1]⟩
abbrev S1x1 : Shape := ⟨2, ![1, 1]⟩
abbrev S8x1x1 : Shape := ⟨3, ![8, 1, 1]⟩
abbrev S8 : Shape := ⟨1, ![8]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S8x2048x2, .f32⟩
  | .hbm, ⟨1, _⟩ => ⟨S8x2048x2, .f32⟩
  | .hbm, ⟨2, _⟩ => ⟨S8x2048x2048, .i32⟩
  | .hbm, ⟨3, _⟩ => ⟨S8x2048x2, .f32⟩
  | .hbm, ⟨4, _⟩ => ⟨S8x2x2048, .f32⟩
  | .hbm, ⟨5, _⟩ => ⟨S8x8x128, .f32⟩
  | .hbm, ⟨6, _⟩ => ⟨S8x1x1, .f32⟩
  | .hbm, ⟨7, _⟩ => ⟨S8, .f32⟩
  | .hbm, ⟨8, _⟩ => ⟨S_, .f32⟩
  | .hbm, ⟨9, _⟩ => ⟨S_, .f32⟩
  | .local _ .vmem, ⟨0, _⟩ => ⟨S1x512x2, .f32⟩
  | .local _ .vmem, ⟨1, _⟩ => ⟨S1x512x2, .f32⟩
  | .local _ .vmem, ⟨2, _⟩ => ⟨S1x2x2048, .f32⟩
  | .local _ .vmem, ⟨3, _⟩ => ⟨S1x2x2048, .f32⟩
  | .local _ .vmem, ⟨4, _⟩ => ⟨S1x512x2048, .i32⟩
  | .local _ .vmem, ⟨5, _⟩ => ⟨S1x512x2048, .i32⟩
  | .local _ .vmem, ⟨6, _⟩ => ⟨S1x8x128, .f32⟩
  | .local _ .vmem, ⟨7, _⟩ => ⟨S1x8x128, .f32⟩
  | .local _ .vmem, ⟨8, _⟩ => ⟨S8x128, .f32⟩
  | _, _ => ⟨S8x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v42 : BitVec 1 := Scalar.cmpi .eq arg1 c3_i32
  let v43 : BitVec 32 := Scalar.extui v42
  let c0_i32_17 : BitVec 32 := 0#32
  let v44 : BitVec 1 := Scalar.cmpi .ne v43 c0_i32_17
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x2048x2_S8x2x2048_0_2_1 : S8x2048x2.Transposes [0, 2, 1] S8x2x2048
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x512x2_S1x512x2_0_0_0 : ∀ a, (![0, 0, 0] : Fin 3 → Nat) a + S1x512x2.size a ≤ S1x512x2.size a
  h_S1x512x2 : 0 < S1x512x2.numel
  shapeCasts_S1x512x2_S512x2 : S1x512x2.ShapeCasts S512x2
  inb_S1x2x2048_S1x2x2048_0_0_0 : ∀ a, (![0, 0, 0] : Fin 3 → Nat) a + S1x2x2048.size a ≤ S1x2x2048.size a
  h_S1x2x2048 : 0 < S1x2x2048.numel
  shapeCasts_S1x2x2048_S2x2048 : S1x2x2048.ShapeCasts S2x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  slices_S512x2_o0_0_S512x1 : S512x2.Slices ![0, 0] S512x1
  slices_S2x2048_o0_0_S1x2048 : S2x2048.Slices ![0, 0] S1x2048
  broadcasts_S512x1_S512x2048 : S512x1.Broadcasts S512x2048
  broadcasts_S1x2048_S512x2048 : S1x2048.Broadcasts S512x2048
  slices_S512x2_o0_1_S512x1 : S512x2.Slices ![0, 1] S512x1
  slices_S2x2048_o1_0_S1x2048 : S2x2048.Slices ![1, 0] S1x2048
  reduces_S512x2048_S512 : S512x2048.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S8x8x128_S8x1x1_0_0_0 : S8x8x128.Slices ![0, 0, 0] S8x1x1
  shapeCasts_S8x1x1_S8 : S8x1x1.ShapeCasts S8
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2.size a ≤ S8x2048x2.size a
  hwx0_0 : ∀ i : grid0.Coords, EltTy.bits .f32 = 32 ∨ (Rect.block (s := S8x2048x2) S1x512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x2048.size a ≤ S8x2x2048.size a
  hwx0_1 : ∀ i : grid0.Coords, EltTy.bits .f32 = 32 ∨ (Rect.block (s := S8x2x2048) S1x2x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x2048x2048.size a
  hwx0_2 : ∀ i : grid0.Coords, EltTy.bits .i32 = 32 ∨ (Rect.block (s := S8x2048x2048) S1x512x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S8x8x128.size a
  hwx0_3 : ∀ i : grid0.Coords, EltTy.bits .f32 = 32 ∨ (Rect.block (s := S8x8x128) S1x8x128.size (cc0_transform_3 i) (hinb0_3 i)).WholeWords (EltTy.packing .f32)

variable [Facts₀]

abbrev win0_0 : Pipeline.Window sig grid0 :=
  Pipeline.Window.ofSpec (Memref.whole main_v0) S1x512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x2 : Shape := ⟨3, ![8, 2048, 2]⟩
abbrev S8x2048x2048 : Shape := ⟨3, ![8, 2048, 2048]⟩
abbrev S8x2048x1x2 : Shape := ⟨4, ![8, 2048, 1, 2]⟩
abbrev S8x1x2048x2 : Shape := ⟨4, ![8, 1, 2048, 2]⟩
abbrev S8x2048x2048x2 : Shape := ⟨4, ![8, 2048, 2048, 2]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x2, .f32⟩
  | .hbm, ⟨1, _⟩ => ⟨S8x2048x2, .f32⟩
  | .hbm, ⟨2, _⟩ => ⟨S8x2048x2048, .i32⟩
  | .hbm, ⟨3, _⟩ => ⟨S8x2048x1x2, .f32⟩
  | .hbm, ⟨4, _⟩ => ⟨S8x1x2048x2, .f32⟩
  | .hbm, ⟨5, _⟩ => ⟨S8x2048x2048x2, .f32⟩
  | .hbm, ⟨6, _⟩ => ⟨S8x2048x2048x2, .f32⟩
  | .hbm, ⟨7, _⟩ => ⟨S8x2048x2048x2, .f32⟩
  | .hbm, ⟨8, _⟩ => ⟨S8x2048x1x2, .f32⟩
  | .hbm, ⟨9, _⟩ => ⟨S8x2048x2048x2, .f32⟩
  | .hbm, ⟨10, _⟩ => ⟨S8x2048x2048x2, .f32⟩
  | .hbm, ⟨11, _⟩ => ⟨S8x1x2048x2, .f32⟩
  | .hbm, ⟨12, _⟩ => ⟨S8x2048x2048x2, .f32⟩
  | .hbm, ⟨13, _⟩ => ⟨S8x2048x2048x2, .f32⟩
  | .hbm, ⟨14, _⟩ => ⟨S8x2048x2048x2, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S_, .i32⟩
  | .hbm, ⟨26, _⟩ => ⟨S8x2048x2048, .i32⟩
  | .hbm, ⟨27, _⟩ => ⟨S8x2048x2048, .i1⟩
  | .hbm, ⟨28, _⟩ => ⟨S_, .f32⟩
  | .hbm, ⟨29, _⟩ => ⟨S_, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S_, .f32⟩
  | _, _ => ⟨S8x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S8x2048x2_S8x2048x1x2_0_1_3 : S8x2048x2.BroadcastsInDim S8x2048x1x2 (![0, 1, 3] : Fin 3 → Fin S8x2048x1x2.rank)
  bcast_S8x2048x2_S8x1x2048x2_0_2_3 : S8x2048x2.BroadcastsInDim S8x1x2048x2 (![0, 2, 3] : Fin 3 → Fin S8x1x2048x2.rank)
  bcast_S8x2048x1x2_S8x2048x2048x2_0_1_2_3 : S8x2048x1x2.BroadcastsInDim S8x2048x2048x2 (![0, 1, 2, 3] : Fin 4 → Fin S8x2048x2048x2.rank)
  bcast_S8x1x2048x2_S8x2048x2048x2_0_1_2_3 : S8x1x2048x2.BroadcastsInDim S8x2048x2048x2 (![0, 1, 2, 3] : Fin 4 → Fin S8x2048x2048x2.rank)
  reducesTo_S8x2048x2048x2_S8x2048x2048_d3 : S8x2048x2048x2.ReducesTo [3] S8x2048x2048
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts₀]

class Facts : Prop extends Facts₀ where

variable [Facts]
-- ==== Proof.KernelCases.lean ====
import proofs.«134631_j52716428591387_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-!
  What one grid point leaves behind, case by case.

  The grid has 8 × 4 points; point t works on batch t / 4 and on the t % 4-th tile of 512 rows. At every point the body
  forms the tile's partial sum (a scalar spread over an [8, 128] block) and adds it to the carried accumulator; at a
  batch's first tile the accumulator is first reset to zero, and at its last tile the accumulator is copied to the output
  block. Here each of the three cases is read back as a term over the body's pure payloads: the accumulator after the
  point, and for the last tile the output block.
-/
namespace Cert.KernelIdeal.Cases

open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a batch: the accumulator is reset, then the tile's partial sum is added: 0 + partial. -/
theorem acc_first (c : Dev nD) (i : grid0.Coords) (a2 : Memref sig .tc .vmem S1x512x2 .f32) (h2 : a2.IsWhole) (a3 : Memref sig .tc .vmem S1x2x2048 .f32) (h3 : a3.IsWhole) (a4 : Memref sig .tc .vmem S1x512x2048 .i32) (h4 : a4.IsWhole) (a5 : Memref sig .tc .vmem S1x8x128 .f32) (h5 : a5.IsWhole) (a6 : Memref sig .tc .vmem S8x128 .f32) (h6 : a6.IsWhole) (hc0 : cond0_0 i) (hc1 : ¬cond0_1 i)
    (x0 : Vec F S1x512x2 .f32) (x1 : Vec F S1x2x2048 .f32) (x2 : Vec F S1x512x2048 .i32) :
    sout0_A_0 c i a2 h2 a3 h3 a4 h4 a5 h5 a6 h6 hc0 hc1 x0 x1 x2 = k0_pay1 (k0_pay3 (F := F)) (k0_pay4 x0 x1 x2) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S8x128) hz2, View.readCov_unit_zero (S := S8x128) _ hz2]
  simp only [View.readAt_eq_ld, h6.read_unread, h2.read_unread, h3.read_unread, h4.read_unread,
    View.ld_unit_zero (S := S8x128) hz2, View.ld_unit_zero (S := S1x512x2) hz3, View.ld_unit_zero (S := S1x2x2048) hz3,
    View.ld_unit_zero (S := S1x512x2048) hz3]

/-- A middle tile: the accumulator the point before left, plus the tile's partial sum. -/
theorem acc_middle (c : Dev nD) (i : grid0.Coords) (a2 : Memref sig .tc .vmem S1x512x2 .f32) (h2 : a2.IsWhole) (a3 : Memref sig .tc .vmem S1x2x2048 .f32) (h3 : a3.IsWhole) (a4 : Memref sig .tc .vmem S1x512x2048 .i32) (h4 : a4.IsWhole) (a5 : Memref sig .tc .vmem S1x8x128 .f32) (h5 : a5.IsWhole) (a6 : Memref sig .tc .vmem S8x128 .f32) (h6 : a6.IsWhole) (hc0 : ¬cond0_0 i) (hc1 : ¬cond0_1 i)
    (x0 : Vec F S1x512x2 .f32) (x1 : Vec F S1x2x2048 .f32) (x2 : Vec F S1x512x2048 .i32) (xs0 : Vec F S8x128 .f32) :
    sout0_B_0 c i a2 h2 a3 h3 a4 h4 a5 h5 a6 h6 hc0 hc1 x0 x1 x2 xs0 = k0_pay1 xs0 (k0_pay4 x0 x1 x2) := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero (S := S8x128) hz2]
  simp only [View.readAt_eq_ld, h6.read_unread, h2.read_unread, h3.read_unread, h4.read_unread,
    View.ld_unit_zero (S := S8x128) hz2, View.ld_unit_zero (S := S1x512x2) hz3, View.ld_unit_zero (S := S1x2x2048) hz3,
    View.ld_unit_zero (S := S1x512x2048) hz3]

/-- Last tile of a batch: the accumulator is updated the same way, -/
theorem acc_last (c : Dev nD) (i : grid0.Coords) (a2 : Memref sig .tc .vmem S1x512x2 .f32) (h2 : a2.IsWhole) (a3 : Memref sig .tc .vmem S1x2x2048 .f32) (h3 : a3.IsWhole) (a4 : Memref sig .tc .vmem S1x512x2048 .i32) (h4 : a4.IsWhole) (a5 : Memref sig .tc .vmem S1x8x128 .f32) (h5 : a5.IsWhole) (a6 : Memref sig .tc .vmem S8x128 .f32) (h6 : a6.IsWhole) (hc0 : ¬cond0_0 i) (hc1 : cond0_1 i)
    (x0 : Vec F S1x512x2 .f32) (x1 : Vec F S1x2x2048 .f32) (x2 : Vec F S1x512x2048 .i32) (xs0 : Vec F S8x128 .f32) :
    sout0_C_0 c i a2 h2 a3 h3 a4 h4 a5 h5 a6 h6 hc0 hc1 x0 x1 x2 xs0 = k0_pay1 xs0 (k0_pay4 x0 x1 x2) := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero (S := S8x128) hz2]
  simp only [View.readAt_eq_ld, h6.read_unread, h2.read_unread, h3.read_unread, h4.read_unread,
    View.ld_unit_zero (S := S8x128) hz2, View.ld_unit_zero (S := S1x512x2) hz3, View.ld_unit_zero (S := S1x2x2048) hz3,
    View.ld_unit_zero (S := S1x512x2048) hz3]

/-- and the output block receives the updated accumulator, with a leading unit axis added. -/
theorem out_last (c : Dev nD) (i : grid0.Coords) (a2 : Memref sig .tc .vmem S1x512x2 .f32) (h2 : a2.IsWhole) (a3 : Memref sig .tc .vmem S1x2x2048 .f32) (h3 : a3.IsWhole) (a4 : Memref sig .tc .vmem S1x512x2048 .i32) (h4 : a4.IsWhole) (a5 : Memref sig .tc .vmem S1x8x128 .f32) (h5 : a5.IsWhole) (a6 : Memref sig .tc .vmem S8x128 .f32) (h6 : a6.IsWhole) (hc0 : ¬cond0_0 i) (hc1 : cond0_1 i)
    (x0 : Vec F S1x512x2 .f32) (x1 : Vec F S1x2x2048 .f32) (x2 : Vec F S1x512x2048 .i32) (xs0 : Vec F S8x128 .f32) :
    out0_C_3 c i a2 h2 a3 h3 a4 h4 a5 h5 a6 h6 hc0 hc1 x0 x1 x2 xs0 = k0_pay2 (k0_pay1 xs0 (k0_pay4 x0 x1 x2)) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero (S := S1x8x128) hz3, View.readCov_unit_zero (S := S8x128) _ hz2]
  simp only [View.readAt_eq_ld, h6.read_unread, h2.read_unread, h3.read_unread, h4.read_unread,
    View.ld_unit_zero (S := S8x128) hz2, View.ld_unit_zero (S := S1x512x2) hz3, View.ld_unit_zero (S := S1x2x2048) hz3,
    View.ld_unit_zero (S := S1x512x2048) hz3]

end Cert.KernelIdeal.Cases
end
-- ==== Proof.LibColumnLayout.lean ====
/-
  Two layout operations that only move indices, read at an index given by its coordinates: a vector cast to a
  one-column matrix, and a one-column matrix broadcast along its rows.  Together they carry a per-row quantity
  (a row maximum, a row sum, its reciprocal) kept as a `[a, 1]` column back onto every entry of its row.
-/
import Idealize.ShloMosaic.Lib.ValueIdx
import Idealize.ShloMosaic.Lib.Pipeline.Value

noncomputable section

namespace Cert.ColumnLayout

open Idealize.ShloMosaic Idealize.ShloMosaic.ValueIdx

/-- A vector cast to a one-column matrix reads, at `(i, 0)`, the vector at `i`. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A one-column matrix broadcast along its rows reads, at `(i, j)`, the column at `(i, 0)`. -/
theorem broadcastTo_a1_ab_apply {a b : ℕ} {α : Type} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      have := i.isLt
      split <;> omega
    | ⟨1, _⟩ => by
      show 0 = if (1 : ℕ) = 1 then 0 else j.val
      rw [if_pos rfl])

end Cert.ColumnLayout

end
-- ==== Proof.TilePartial.lean ====
import proofs.«134631_j52716428591387_2_alg».proof.Proof.Gen.KernelIdeal.Skeleton
import proofs.«134631_j52716428591387_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Tile

open Cert.KernelIdeal Cert.KernelIdeal.Facts₀

/-!
  One tile's partial sum.

  At a grid point the body holds a [1, 512, 2] block of summed points (the tile's rows), the batch's [1, 2, 2048] block of
  transposed summed points (all columns) and the [1, 512, 2048] block of the mask. For row r and column j it forms the two
  coordinate gaps, their squares' sum, multiplies by the named constant, exponentiates, subtracts from one, and keeps the
  result where the mask is 1 (zero elsewhere); it sums the rows, then the row sums, and spreads the total over [8, 128].
  Read at any index of that block, the payload is the double sum over r and j of the pair term.
-/

/-- The total of a [512, 2048] matrix — its rows summed, then the row sums summed — spread over an [8, 128] block. -/
def spreadTotal (v30 : FVec Ideal S512x2048 .f32) : FVec Ideal S8x128 .f32 :=
  broadcastTo S8x128 (shapeCast S1x1 (shapeCast S1x1 (multiReduction .add [0] S1 (shapeCast S512x1 (multiReduction .add [1] S512 v30 0x00000000#32 reduces_S512x2048_S512 (.inl rfl) rfl) shapeCasts_S512_S512x1) 0x00000000#32 reduces_S512x1_S1 (.inl rfl) rfl) shapeCasts_S1_S1x1) shapeCasts_S1x1_S1x1) broadcasts_S1x1_S8x128

/-- Summing row r's entries visits (r, j) for every column j. -/
theorem lift_row (r : Fin 512) (j : Fin 2048) : (reduces_S512x2048_S512.lift (ix1 r) j : S512x2048.Idx) = ix2 r j := by
  funext a
  match a with
  | ⟨0, _⟩ => rfl
  | ⟨1, _⟩ => rfl

/-- Summing the one column of row sums visits (r, 0) for every row r. -/
theorem lift_col (r : Fin 512) : (reduces_S512x1_S1.lift (ix1 (0 : Fin 1)) r : S512x1.Idx) = ix2 r (0 : Fin 1) := by
  funext a
  match a with
  | ⟨0, _⟩ => rfl
  | ⟨1, _⟩ => rfl

/-- Every entry of the spread block is the matrix's total. -/
theorem spreadTotal_apply (v30 : FVec Ideal S512x2048 .f32) (y : S8x128.Idx) :
    spreadTotal v30 y = ∑ r : Fin 512, ∑ j : Fin 2048, v30 (ix2 r j) := by
  unfold spreadTotal
  refine (broadcastTo_apply _ broadcasts_S1x1_S8x128 y (ix2 (0 : Fin 1) (0 : Fin 1)) (fun a => match a with
    | ⟨0, _⟩ => by show 0 = if (1 : ℕ) = 1 then 0 else _; rw [if_pos rfl]
    | ⟨1, _⟩ => by show 0 = if (1 : ℕ) = 1 then 0 else _; rw [if_pos rfl])).trans ?_
  rw [shapeCast_self]
  refine (Cert.ColumnLayout.shapeCast_a_a1_apply _ shapeCasts_S1_S1x1 (0 : Fin 1) (0 : Fin 1)).trans ?_
  refine (Ideal.multiReduction_add_single _ _ reduces_S512x1_S1 _ _ (ix1 (0 : Fin 1))).trans ?_
  refine Finset.sum_congr rfl fun r _ => ?_
  refine (congrArg (shapeCast S512x1 _ shapeCasts_S512_S512x1) (lift_col r)).trans ?_
  refine (Cert.ColumnLayout.shapeCast_a_a1_apply _ shapeCasts_S512_S512x1 r (0 : Fin 1)).trans ?_
  refine (Ideal.multiReduction_add_single _ _ reduces_S512x2048_S512 _ _ (ix1 r)).trans ?_
  exact Finset.sum_congr rfl fun j _ => congrArg v30 (lift_row r j)

/-- The gap along coordinate 0 between row r's point and column j's point, as a [512, 2048] matrix. -/
def gap0 (v4 : FVec Ideal S512x2 .f32) (v6 : FVec Ideal S2x2048 .f32) : FVec Ideal S512x2048 .f32 :=
  subf (broadcastTo S512x2048 (extractStridedSlice S512x1 ![0, 0] v4 slices_S512x2_o0_0_S512x1) broadcasts_S512x1_S512x2048)
    (broadcastTo S512x2048 (extractStridedSlice S1x2048 ![0, 0] v6 slices_S2x2048_o0_0_S1x2048) broadcasts_S1x2048_S512x2048)

/-- The gap along coordinate 1. -/
def gap1 (v4 : FVec Ideal S512x2 .f32) (v6 : FVec Ideal S2x2048 .f32) : FVec Ideal S512x2048 .f32 :=
  subf (broadcastTo S512x2048 (extractStridedSlice S512x1 ![0, 1] v4 slices_S512x2_o0_1_S512x1) broadcasts_S512x1_S512x2048)
    (broadcastTo S512x2048 (extractStridedSlice S1x2048 ![1, 0] v6 slices_S2x2048_o1_0_S1x2048) broadcasts_S1x2048_S512x2048)

/-- A one-row matrix broadcast down the rows reads, at (r, j), the row at (0, j). -/
theorem broadcastTo_row_apply (x : FVec Ideal S1x2048 .f32) (r : Fin 512) (j : Fin 2048) :
    broadcastTo S512x2048 x broadcasts_S1x2048_S512x2048 (ix2 r j) = x (ix2 (0 : Fin 1) j) :=
  broadcastTo_apply x broadcasts_S1x2048_S512x2048 _ _ (fun c => match c with
    | ⟨0, _⟩ => by show 0 = if (1 : ℕ) = 1 then 0 else _; rw [if_pos rfl]
    | ⟨1, _⟩ => by show j.val = if (2048 : ℕ) = 1 then 0 else j.val; rw [if_neg (by decide)])

theorem gap0_apply (v4 : FVec Ideal S512x2 .f32) (v6 : FVec Ideal S2x2048 .f32) (r : Fin 512) (j : Fin 2048) :
    gap0 v4 v6 (ix2 r j) = v4 (ix2 r (0 : Fin 2)) - v6 (ix2 (0 : Fin 2) j) := by
  unfold gap0
  rw [subf_apply, Cert.ColumnLayout.broadcastTo_a1_ab_apply, broadcastTo_row_apply]
  congr 1
  · exact extractStridedSlice_apply _ v4 slices_S512x2_o0_0_S512x1 _ (ix2 r (0 : Fin 2)) (fun a => match a with
      | ⟨0, _⟩ => by show r.val = 0 + r.val; omega
      | ⟨1, _⟩ => rfl)
  · exact extractStridedSlice_apply _ v6 slices_S2x2048_o0_0_S1x2048 _ (ix2 (0 : Fin 2) j) (fun a => match a with
      | ⟨0, _⟩ => rfl
      | ⟨1, _⟩ => by show j.val = 0 + j.val; omega)

theorem gap1_apply (v4 : FVec Ideal S512x2 .f32) (v6 : FVec Ideal S2x2048 .f32) (r : Fin 512) (j : Fin 2048) :
    gap1 v4 v6 (ix2 r j) = v4 (ix2 r (1 : Fin 2)) - v6 (ix2 (1 : Fin 2) j) := by
  unfold gap1
  rw [subf_apply, Cert.ColumnLayout.broadcastTo_a1_ab_apply, broadcastTo_row_apply]
  congr 1
  · exact extractStridedSlice_apply _ v4 slices_S512x2_o0_1_S512x1 _ (ix2 r (1 : Fin 2)) (fun a => match a with
      | ⟨0, _⟩ => by show r.val = 0 + r.val; omega
      | ⟨1, _⟩ => rfl)
  · exact extractStridedSlice_apply _ v6 slices_S2x2048_o1_0_S1x2048 _ (ix2 (1 : Fin 2) j) (fun a => match a with
      | ⟨0, _⟩ => rfl
      | ⟨1, _⟩ => by show j.val = 0 + j.val; omega)

/-- The masked pair terms of a tile, as a [512, 2048] matrix. -/
def maskedTerms (v4 : FVec Ideal S512x2 .f32) (v6 : FVec Ideal S2x2048 .f32) (v8 : IVec S512x2048 32) : FVec Ideal S512x2048 .f32 :=
  select (cmpi .eq v8 (broadcast S512x2048 1#32))
    (subf (broadcast S512x2048 (Scalar.ofBits .f32 0x3F800000#32))
      (exp (mulf (addf (mulf (gap0 v4 v6) (gap0 v4 v6)) (mulf (gap1 v4 v6) (gap1 v4 v6)))
        (broadcast S512x2048 (Named.named κ "neg_inv_10" 0xBDCCCCCD#32)))))
    (broadcast S512x2048 (Scalar.ofBits .f32 0x00000000#32))

/-- The pair term on extended reals: from the two points' coordinates and the mask word. -/
def pairE (p0 q0 p1 q1 : EReal) (w : BitVec 32) : EReal :=
  Scalar.select (IntOp.cmpi .eq w 1#32)
    (Ideal.ofBits .f32 0x3F800000#32 - Ideal.exp (((p0 - q0) * (p0 - q0) + (p1 - q1) * (p1 - q1)) * Named.named (F := Ideal) κ "neg_inv_10" (φ := .f32) 0xBDCCCCCD#32))
    (Ideal.ofBits .f32 0x00000000#32)

theorem maskedTerms_apply (v4 : FVec Ideal S512x2 .f32) (v6 : FVec Ideal S2x2048 .f32) (v8 : IVec S512x2048 32) (r : Fin 512) (j : Fin 2048) :
    maskedTerms v4 v6 v8 (ix2 r j)
      = pairE (v4 (ix2 r (0 : Fin 2))) (v6 (ix2 (0 : Fin 2) j)) (v4 (ix2 r (1 : Fin 2))) (v6 (ix2 (1 : Fin 2) j)) (v8 (ix2 r j)) := by
  unfold maskedTerms pairE
  rw [select_apply, subf_apply, ← gap0_apply v4 v6 r j, ← gap1_apply v4 v6 r j]
  rfl

/-- The tile's payload is the spread total of the masked pair terms of the three blocks with their leading unit axis dropped. -/
theorem pay4_eq (x0 : Vec Ideal S1x512x2 .f32) (x1 : Vec Ideal S1x2x2048 .f32) (x2 : Vec Ideal S1x512x2048 .i32) :
    Gen.k0_pay4 (F := Ideal) x0 x1 x2
      = spreadTotal (maskedTerms (shapeCast S512x2 x0 shapeCasts_S1x512x2_S512x2) (shapeCast S2x2048 x1 shapeCasts_S1x2x2048_S2x2048)
          (shapeCast S512x2048 x2 shapeCasts_S1x512x2048_S512x2048)) := rfl

/-- Dropping the leading unit axis of the tile's rows: (r, d) reads (0, r, d). -/
theorem rows_dropUnit (x0 : Vec Ideal S1x512x2 .f32) (r : Fin 512) (d : Fin 2) :
    shapeCast S512x2 x0 shapeCasts_S1x512x2_S512x2 (ix2 r d) = x0 (ix3 (0 : Fin 1) r d) :=
  (shapeCast_dropUnit_apply ![512, 2] x0 shapeCasts_S1x512x2_S512x2 (ix2 r d)).trans
    (congrArg x0 (funext fun a => match a with | ⟨0, _⟩ => rfl | ⟨1, _⟩ => rfl | ⟨2, _⟩ => rfl))

/-- The same for the batch's columns: (d, j) reads (0, d, j). -/
theorem cols_dropUnit (x1 : Vec Ideal S1x2x2048 .f32) (d : Fin 2) (j : Fin 2048) :
    shapeCast S2x2048 x1 shapeCasts_S1x2x2048_S2x2048 (ix2 d j) = x1 (ix3 (0 : Fin 1) d j) :=
  (shapeCast_dropUnit_apply ![2, 2048] x1 shapeCasts_S1x2x2048_S2x2048 (ix2 d j)).trans
    (congrArg x1 (funext fun a => match a with | ⟨0, _⟩ => rfl | ⟨1, _⟩ => rfl | ⟨2, _⟩ => rfl))

/-- And for the mask block: (r, j) reads (0, r, j). -/
theorem mask_dropUnit (x2 : Vec Ideal S1x512x2048 .i32) (r : Fin 512) (j : Fin 2048) :
    shapeCast S512x2048 x2 shapeCasts_S1x512x2048_S512x2048 (ix2 r j) = x2 (ix3 (0 : Fin 1) r j) :=
  (shapeCast_dropUnit_apply ![512, 2048] x2 shapeCasts_S1x512x2048_S512x2048 (ix2 r j)).trans
    (congrArg x2 (funext fun a => match a with | ⟨0, _⟩ => rfl | ⟨1, _⟩ => rfl | ⟨2, _⟩ => rfl))

/-- The tile's payload at any index: the sum over the tile's rows r and all columns j of the pair term of the blocks' entries. -/
theorem pay4_apply (x0 : Vec Ideal S1x512x2 .f32) (x1 : Vec Ideal S1x2x2048 .f32) (x2 : Vec Ideal S1x512x2048 .i32) (y : S8x128.Idx) :
    Gen.k0_pay4 (F := Ideal) x0 x1 x2 y
      = ∑ r : Fin 512, ∑ j : Fin 2048,
          pairE (x0 (ix3 (0 : Fin 1) r (0 : Fin 2))) (x1 (ix3 (0 : Fin 1) (0 : Fin 2) j))
            (x0 (ix3 (0 : Fin 1) r (1 : Fin 2))) (x1 (ix3 (0 : Fin 1) (1 : Fin 2) j)) (x2 (ix3 (0 : Fin 1) r j)) := by
  rw [pay4_eq, spreadTotal_apply]
  refine Finset.sum_congr rfl fun r _ => Finset.sum_congr rfl fun j _ => ?_
  rw [maskedTerms_apply, rows_dropUnit, rows_dropUnit, cols_dropUnit, cols_dropUnit, mask_dropUnit]

end Cert.KernelIdeal.Tile
end
-- ==== Proof.Accumulate.lean ====
import proofs.«134631_j52716428591387_2_alg».proof.Proof.KernelCases
import proofs.«134631_j52716428591387_2_alg».proof.Proof.TilePartial

noncomputable section

open Idealize.ShloMosaic Idealize.ShloMosaic.TcCoe Idealize.SL.Sem Idealize.ShloMosaic.ValueIdx
open Idealize.ShloMosaic.Pipeline (Dat)

/-!
  The accumulator across the grid.

  Point n of the grid (n < 32) is tile n % 4 of batch n / 4. The carried accumulator after point n is the tile's partial
  sum added to zero when n % 4 = 0, and added to what point n - 1 left otherwise. So after the last tile of batch b it
  holds, at every entry, the sum of the batch's four tile sums.
-/
namespace Cert.KernelIdeal.Acc

open Cert.KernelIdeal Cert.KernelIdeal.Gen Cert.KernelIdeal.Cases

section AnyValues
variable {F : FTy → Type} [FloatOps F] [Named F]
variable (m : (ℓ : Loc nD τ sig) → Buf (Elt F) ℓ)

/-- The tile's partial sum at point t, as the body forms it from the three input blocks. -/
def tileBlock (c : Dev nD) (t : Fin cfg0.N) : FVec F S8x128 .f32 :=
  k0_pay4 (iblk m c 0 t) (iblk m c 1 t) (iblk m c 2 t)

/-- The accumulator after point n, as a chain over the points. -/
def accBlock (c : Dev nD) : (n : ℕ) → n < cfg0.N → Vec F S8x128 .f32
  | 0, h => k0_pay1 (k0_pay3 (F := F)) (tileBlock m c ⟨0, h⟩)
  | n + 1, h =>
    if (n + 1) % 4 = 0 then k0_pay1 (k0_pay3 (F := F)) (tileBlock m c ⟨n + 1, h⟩)
    else k0_pay1 (accBlock c n (Nat.lt_of_succ_lt h)) (tileBlock m c ⟨n + 1, h⟩)

/-- What the run leaves in the carried accumulator after point n is that chain: by induction on the point. -/
theorem scratch_eq (c : Dev nD) : ∀ (n : ℕ) (h : n < cfg0.N), (outsAt0 m c n h).2 = accBlock m c n h
  | 0, h => by
    rw [outsAt0_A m c ⟨0, h⟩ rfl (by dsimp only; omega)]
    exact acc_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) scM0_0 (Memref.isWhole_whole _) ((hcond0_0 ⟨0, h⟩).mpr rfl) (fun hh => by have h3 := (hcond0_1 ⟨0, h⟩).mp hh; dsimp only at h3; omega) (iblk m c 0 ⟨0, h⟩) (iblk m c 1 ⟨0, h⟩) (iblk m c 2 ⟨0, h⟩)
  | n + 1, h => by
    have ih := scratch_eq c n (Nat.lt_of_succ_lt h)
    by_cases h0 : (n + 1) % 4 = 0
    · have h1 : ¬(n + 1) % 4 = 3 := by omega
      rw [outsAt0_A m c ⟨n + 1, h⟩ h0 h1]
      refine (acc_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        (ms0_3 ⟨n + 1, h⟩) (hs0_3 ⟨n + 1, h⟩) scM0_0 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩)).trans ?_
      show _ = if (n + 1) % 4 = 0 then _ else _
      rw [if_pos h0]; rfl
    · by_cases h1 : (n + 1) % 4 = 3
      · rw [outsAt0_C m c ⟨n + 1, h⟩ h0 h1]
        refine (acc_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) _).trans ?_
        show k0_pay1 (outsAt0 m c n _).2 _ = if (n + 1) % 4 = 0 then _ else _
        rw [if_neg h0, ih]; rfl
      · rw [outsAt0_B m c ⟨n + 1, h⟩ h0 h1]
        refine (acc_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) _).trans ?_
        show k0_pay1 (outsAt0 m c n _).2 _ = if (n + 1) % 4 = 0 then _ else _
        rw [if_neg h0, ih]; rfl

/-- At a batch's last tile the output block receives the accumulator, with a leading unit axis. -/
theorem out_eq (c : Dev nD) (t : Fin cfg0.N) (h1 : t.val % 4 = 3) :
    (outsAt0 m c t.val t.isLt).1 = k0_pay2 (accBlock m c t.val t.isLt) := by
  have h0 : ¬t.val % 4 = 0 := by omega
  obtain ⟨n, hn⟩ := t
  cases n with
  | zero => exact absurd h1 (by dsimp only; omega)
  | succ n =>
    rw [outsAt0_C m c ⟨n + 1, hn⟩ h0 h1]
    refine (out_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
      (ms0_3 ⟨n + 1, hn⟩) (hs0_3 ⟨n + 1, hn⟩) scM0_0 (Memref.isWhole_whole _) (fun hh => h0 ((hcond0_0 ⟨n + 1, hn⟩).mp hh)) ((hcond0_1 ⟨n + 1, hn⟩).mpr h1) (iblk m c 0 ⟨n + 1, hn⟩) (iblk m c 1 ⟨n + 1, hn⟩) (iblk m c 2 ⟨n + 1, hn⟩) _).trans ?_
    show k0_pay2 (k0_pay1 (outsAt0 m c n _).2 _) = k0_pay2 (if (n + 1) % 4 = 0 then _ else _)
    rw [if_neg h0, scratch_eq m c n]; rfl

end AnyValues

end Cert.KernelIdeal.Acc
end
-- ==== Proof.BlockReads.lean ====
import proofs.«134631_j52716428591387_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

/-!
  Which array entries a grid point sees.

  Point t works on batch t / 4 and tile t % 4. Its block of the summed points is rows 512 (t % 4) … 512 (t % 4) + 511 of
  batch t / 4; its block of the transposed summed points is all of batch t / 4; its mask block is the same rows, all columns;
  its output block is batch t / 4's [8, 128] slab. The summed points are the two arguments added, and the transposed ones
  are those with the last two axes exchanged: both are formed before the grid runs.
-/
namespace Cert.KernelIdeal.Blocks

open Cert.KernelIdeal Cert.KernelIdeal.Gen

variable {F : FTy → Type} [FloatOps F] [Named F]
variable (m : (ℓ : Loc nD τ sig) → Buf (Elt F) ℓ)

/-- The four windows' block indices at point t: (t / 4, t % 4, 0), (t / 4, 0, 0), (t / 4, t % 4, 0), (t / 4, 0, 0). -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = 0 ∧ win0_3.index t (2 : Fin 3) = 0) :=
  (by decide +kernel : ∀ t : Fin grid0.N, _)

/-- Entry (0, r, d) of the tile's rows is entry (t / 4, 512 (t % 4) + r, d) of the summed points. -/
theorem rows_entry (c : Dev nD) (t : Fin cfg0.N) (r : Fin 512) (d : Fin 2) (k : S8x2048x2.Idx)
    (hk0 : (k 0).val = t.val / 4) (hk1 : (k 1).val = 512 * (t.val % 4) + r.val) (hk2 : (k 2).val = d.val) :
    (iblk m c 0 t : Vec F S1x512x2 .f32) (ix3 (0 : Fin 1) r d) = (V m c main_v0 : S8x2048x2.Idx → Elt F .f32) k := by
  obtain ⟨⟨h0, h1, h2⟩, -⟩ := idx_facts t
  unfold iblk
  rw [View.read_apply]
  show V m c main_v0 _ = V m c main_v0 _
  congr 1
  funext a
  apply Fin.ext
  match a with
  | ⟨0, _⟩ => show win0_0.index t 0 * 1 + 1 * 0 = (k 0).val; rw [h0, hk0]; omega
  | ⟨1, _⟩ => show win0_0.index t 1 * 512 + 1 * r.val = (k 1).val; rw [h1, hk1]; omega
  | ⟨2, _⟩ => show win0_0.index t 2 * 2 + 1 * d.val = (k 2).val; rw [h2, hk2]; omega

/-- Entry (0, d, j) of the batch's columns is entry (t / 4, d, j) of the transposed summed points. -/
theorem cols_entry (c : Dev nD) (t : Fin cfg0.N) (d : Fin 2) (j : Fin 2048) (k : S8x2x2048.Idx)
    (hk0 : (k 0).val = t.val / 4) (hk1 : (k 1).val = d.val) (hk2 : (k 2).val = j.val) :
    (iblk m c 1 t : Vec F S1x2x2048 .f32) (ix3 (0 : Fin 1) d j) = (V m c main_v1 : S8x2x2048.Idx → Elt F .f32) k := by
  obtain ⟨-, ⟨h0, h1, h2⟩, -⟩ := idx_facts t
  unfold iblk
  rw [View.read_apply]
  show V m c main_v1 _ = V m c main_v1 _
  congr 1
  funext a
  apply Fin.ext
  match a with
  | ⟨0, _⟩ => show win0_1.index t 0 * 1 + 1 * 0 = (k 0).val; rw [h0, hk0]; omega
  | ⟨1, _⟩ => show win0_1.index t 1 * 2 + 1 * d.val = (k 1).val; rw [h1, hk1]; omega
  | ⟨2, _⟩ => show win0_1.index t 2 * 2048 + 1 * j.val = (k 2).val; rw [h2, hk2]; omega

/-- Entry (0, r, j) of the mask block is entry (t / 4, 512 (t % 4) + r, j) of the mask. -/
theorem mask_entry (c : Dev nD) (t : Fin cfg0.N) (r : Fin 512) (j : Fin 2048) (k : S8x2048x2048.Idx)
    (hk0 : (k 0).val = t.val / 4) (hk1 : (k 1).val = 512 * (t.val % 4) + r.val) (hk2 : (k 2).val = j.val) :
    (iblk m c 2 t : Vec F S1x512x2048 .i32) (ix3 (0 : Fin 1) r j) = (V m c main_arg2 : S8x2048x2048.Idx → BitVec 32) k := by
  obtain ⟨-, -, ⟨h0, h1, h2⟩, -⟩ := idx_facts t
  unfold iblk
  rw [View.read_apply]
  show V m c main_arg2 _ = V m c main_arg2 _
  congr 1
  funext a
  apply Fin.ext
  match a with
  | ⟨0, _⟩ => show win0_2.index t 0 * 1 + 1 * 0 = (k 0).val; rw [h0, hk0]; omega
  | ⟨1, _⟩ => show win0_2.index t 1 * 512 + 1 * r.val = (k 1).val; rw [h1, hk1]; omega
  | ⟨2, _⟩ => show win0_2.index t 2 * 2048 + 1 * j.val = (k 2).val; rw [h2, hk2]; omega

/-- The summed points: the two arguments added. -/
theorem summed_eq (c : Dev nD) :
    (V m c main_v0 : S8x2048x2.Idx → Elt F .f32)
      = addf (m ((c : Thread nD τ).loc main_arg0)) (m ((c : Thread nD τ).loc main_arg1)) := by
  show StableHlo.after hostOps0 (fun b => m (c, b)) (Proc.devRef .tc main_v0) = _
  after_results

/-- The transposed summed points. -/
theorem transposed_eq (c : Dev nD) :
    (V m c main_v1 : S8x2x2048.Idx → Elt F .f32)
      = transpose S8x2x2048 [0, 2, 1] (addf (m ((c : Thread nD τ).loc main_arg0)) (m ((c : Thread nD τ).loc main_arg1)))
          Facts₀.transposes_S8x2048x2_S8x2x2048_0_2_1 := by
  show StableHlo.after hostOps0 (fun b => m (c, b)) (Proc.devRef .tc main_v1) = _
  after_results

end Cert.KernelIdeal.Blocks
end
-- ==== Proof.OutputArray.lean ====
import proofs.«134631_j52716428591387_2_alg».proof.Proof.Accumulate
import proofs.«134631_j52716428591387_2_alg».proof.Proof.BlockReads

noncomputable section

open Idealize.ShloMosaic Idealize.ShloMosaic.TcCoe Idealize.SL.Sem Idealize.ShloMosaic.ValueIdx
open Idealize.ShloMosaic.Pipeline (Dat)

/-!
  The array the grid leaves.

  Read on extended reals, the accumulator is a scalar repeated over the block: after point n it is the sum of the tile
  sums of the points of n's batch up to n. The output array's slab b is written once, at the batch's last point 4 b + 3,
  with that accumulator; so every entry of slab b is the sum of the batch's four tile sums, and the eight slabs fill the array.
-/
namespace Cert.KernelIdeal.Output

open Cert.KernelIdeal Cert.KernelIdeal.Gen Cert.KernelIdeal.Acc

variable (m : (ℓ : Loc nD τ sig) → Buf (Elt Ideal) ℓ)

/-- Adding into the accumulator, entry by entry. -/
theorem pay1_apply (v35 v37 : Vec Ideal S8x128 .f32) (y : S8x128.Idx) :
    k0_pay1 (F := Ideal) v35 v37 y = v35 y + v37 y := by
  unfold k0_pay1
  rw [shapeCast_self]
  rfl

/-- The reset value is zero at every entry. -/
theorem pay3_apply (y : S8x128.Idx) : k0_pay3 (F := Ideal) y = 0 := by
  unfold k0_pay3
  rw [shapeCast_self]
  exact Ideal.ofBits_zero_f32

/-- The copy into the output block adds a leading unit axis: (u, p, q) reads (p, q). -/
theorem pay2_apply (v45 : Vec Ideal S8x128 .f32) (u : Fin 1) (p : Fin 8) (q : Fin 128) :
    k0_pay2 (F := Ideal) v45 (ix3 u p q) = v45 (ix2 p q) := by
  unfold k0_pay2
  exact (shapeCast_addUnit_apply ![8, 128] v45 _ (ix3 u p q)).trans
    (congrArg v45 (funext fun a => match a with | ⟨0, _⟩ => rfl | ⟨1, _⟩ => rfl))

/-- The tile sum of point t: the pair terms of the point's blocks over the tile's 512 rows and all 2048 columns. -/
def tileSum (c : Dev nD) (t : Fin cfg0.N) : EReal :=
  ∑ r : Fin 512, ∑ j : Fin 2048,
    Tile.pairE ((iblk m c 0 t : Vec Ideal S1x512x2 .f32) (ix3 (0 : Fin 1) r (0 : Fin 2)))
      ((iblk m c 1 t : Vec Ideal S1x2x2048 .f32) (ix3 (0 : Fin 1) (0 : Fin 2) j))
      ((iblk m c 0 t : Vec Ideal S1x512x2 .f32) (ix3 (0 : Fin 1) r (1 : Fin 2)))
      ((iblk m c 1 t : Vec Ideal S1x2x2048 .f32) (ix3 (0 : Fin 1) (1 : Fin 2) j))
      ((iblk m c 2 t : Vec Ideal S1x512x2048 .i32) (ix3 (0 : Fin 1) r j))

/-- Every entry of the tile's partial-sum block is the tile sum. -/
theorem tileBlock_apply (c : Dev nD) (t : Fin cfg0.N) (y : S8x128.Idx) : tileBlock m c t y = tileSum m c t :=
  Tile.pay4_apply (iblk m c 0 t) (iblk m c 1 t) (iblk m c 2 t) y

/-- The accumulator as a scalar chain over the points: reset at the points divisible by four. -/
def accVal (p : ℕ → EReal) : ℕ → EReal
  | 0 => 0 + p 0
  | n + 1 => if (n + 1) % 4 = 0 then 0 + p (n + 1) else accVal p n + p (n + 1)

/-- The tile sums, indexed by the point's number. -/
def tileSumN (c : Dev nD) (n : ℕ) : EReal := if h : n < cfg0.N then tileSum m c ⟨n, h⟩ else 0

/-- Every entry of the accumulator block after point n is the scalar chain at n. -/
theorem accBlock_apply (c : Dev nD) : ∀ (n : ℕ) (h : n < cfg0.N) (y : S8x128.Idx),
    accBlock m c n h y = accVal (tileSumN m c) n
  | 0, h, y => by
    show k0_pay1 (F := Ideal) (k0_pay3 (F := Ideal)) (tileBlock m c ⟨0, h⟩) y = 0 + tileSumN m c 0
    rw [pay1_apply, pay3_apply, tileBlock_apply]
    unfold tileSumN
    rw [dif_pos h]
  | n + 1, h, y => by
    rw [accBlock, accVal]
    by_cases h0 : (n + 1) % 4 = 0
    · rw [if_pos h0, if_pos h0, pay1_apply, pay3_apply, tileBlock_apply]
      unfold tileSumN
      rw [dif_pos h]
    · rw [if_neg h0, if_neg h0, pay1_apply, accBlock_apply c n (Nat.lt_of_succ_lt h), tileBlock_apply]
      unfold tileSumN
      rw [dif_pos h]

/-- After a batch's last point the chain is the sum of the batch's four tile sums. -/
theorem accVal_last (p : ℕ → EReal) (b : ℕ) :
    accVal p (4 * b + 3) = p (4 * b) + p (4 * b + 1) + p (4 * b + 2) + p (4 * b + 3) := by
  have e0 : accVal p (4 * b) = p (4 * b) := by
    cases b with
    | zero => show 0 + p 0 = p 0; rw [zero_add]
    | succ b =>
      show accVal p ((4 * b + 3) + 1) = p ((4 * b + 3) + 1)
      rw [accVal, if_pos (by omega), zero_add]
  have e1 : accVal p (4 * b + 1) = p (4 * b) + p (4 * b + 1) := by
    rw [accVal, if_neg (by omega), e0]
  have e2 : accVal p (4 * b + 1 + 1) = p (4 * b) + p (4 * b + 1) + p (4 * b + 1 + 1) := by
    rw [accVal, if_neg (by omega), e1]
  show accVal p (4 * b + 1 + 1 + 1) = p (4 * b) + p (4 * b + 1) + p (4 * b + 1 + 1) + p (4 * b + 1 + 1 + 1)
  rw [accVal, if_neg (by omega), e2]

/-- The output array: every entry of slab b is the accumulator after point 4 b + 3. -/
abbrev outArr (c : Dev nD) : Buf (Elt Ideal) ((c : Thread nD τ).loc main_v2) :=
  fun i => accVal (tileSumN m c) (4 * (i 0).val + 3)

/-- What a batch's last point writes back is its slab of that array. -/
theorem flushed_eq (c : Dev nD) (t : Fin cfg0.N) (hf : (cfg0.win 3).flush t = true) :
    (dats m 0 c).flushed 3 t = ((cfg0.win 3).blk t).view.read (Elt Ideal) (outArr m c) := by
  have h3 : t.val % 4 = 3 := (flush0_3 t).mp hf
  obtain ⟨-, -, -, ⟨h0, h1, h2⟩⟩ := Blocks.idx_facts t
  show (cfg0.win 3).cut (grid0.coords t) ((dats m 0 c).after 3 t) = _
  rw [after0_3, out_eq m c t h3]
  funext y
  obtain ⟨u, p, q, rfl⟩ : ∃ (u : Fin 1) (p : Fin 8) (q : Fin 128), y = ix3 u p q := ⟨y 0, y 1, y 2, eq_ix3 y⟩
  show k0_pay2 (F := Ideal) (accBlock m c t.val t.isLt) (ix3 u p q)
    = accVal (tileSumN m c) (4 * ((((cfg0.win 3).blk t).view.emb (ix3 u p q)) 0).val + 3)
  rw [pay2_apply, accBlock_apply]
  have e : ((((cfg0.win 3).blk t).view.emb (ix3 u p q)) 0).val = t.val / 4 := by
    show win0_3.index t (0 : Fin 3) * 1 + 1 * u.val = t.val / 4
    rw [h0]; omega
  rw [e]
  congr 1
  omega

/-- An index of the array is in point t's slab iff each coordinate is in the slab's range. -/
theorem mem_slab (t : Fin cfg0.N) (i : S8x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v2).slice (win0_3.rect t)).set ↔ _
  rw [View.set_slice_whole, Rect.mem_set_unit]
  exact Iff.rfl

/-- Every index lies in the slab its batch's last point writes. -/
theorem covered (i : S8x8x128.Idx) : ∃ t : Fin cfg0.N, (cfg0.win 3).flush t = true ∧ i ∈ ((cfg0.win 3).blk t).view.set := by
  have hb : (i 0).val < 8 := (i 0).isLt
  have hp : (i 1).val < 8 := (i 1).isLt
  have hq : (i 2).val < 128 := (i 2).isLt
  have hN : cfg0.N = 32 := N_0
  refine ⟨⟨4 * (i 0).val + 3, by omega⟩, (flush0_3 _).mpr (by show (4 * (i 0).val + 3) % 4 = 3; omega), ?_⟩
  rw [mem_slab]
  obtain ⟨-, -, -, ⟨h0, h1, h2⟩⟩ := Blocks.idx_facts ⟨4 * (i 0).val + 3, by omega⟩
  intro a
  match a with
  | ⟨0, _⟩ => show win0_3.index _ (0 : Fin 3) * 1 ≤ (i 0).val ∧ (i 0).val < win0_3.index _ (0 : Fin 3) * 1 + 1; rw [h0]; show (4 * (i 0).val + 3) / 4 * 1 ≤ _ ∧ _ < (4 * (i 0).val + 3) / 4 * 1 + 1; omega
  | ⟨1, _⟩ => show win0_3.index _ (1 : Fin 3) * 8 ≤ (i 1).val ∧ (i 1).val < win0_3.index _ (1 : Fin 3) * 8 + 8; rw [h1]; omega
  | ⟨2, _⟩ => show win0_3.index _ (2 : Fin 3) * 128 ≤ (i 2).val ∧ (i 2).val < win0_3.index _ (2 : Fin 3) * 128 + 128; rw [h2]; omega

/-- So the output array ends holding, in every entry of slab b, the accumulator after point 4 b + 3. -/
theorem final_out (c : Dev nD) : (dats m 0 c).arrAt 3 cfg0.N = outArr m c :=
  (dats m 0 c).arrAt_eq_of_cover 3 (outArr m c) (flushed_eq m c) covered

end Cert.KernelIdeal.Output
end
-- ==== Proof.PairSum.lean ====
/-
  The quantity both programs compute, over the reals.

  For inputs e, a : [8, 2048, 2] (reals) and an integer mask : [8, 2048, 2048], put s = e + a. The pair (b, i, j)
  contributes 1 - exp(-((s[b,i,0] - s[b,j,0])² + (s[b,i,1] - s[b,j,1])²) / 10) when mask[b,i,j] = 1 and nothing
  otherwise; the result is the sum of the contributions over all b, i, j.
-/
import Idealize.ShloMosaic.PureOps.Ideal
import Idealize.ShloMosaic.Lib.ValueIdx

noncomputable section

namespace Cert.PairSum

open Idealize.ShloMosaic Idealize.ShloMosaic.ValueIdx

/-- Index type of the two float inputs, [8, 2048, 2]. -/
abbrev PtIdx : Type := (⟨3, ![8, 2048, 2]⟩ : Shape).Idx
/-- Index type of the mask, [8, 2048, 2048]. -/
abbrev MaskIdx : Type := (⟨3, ![8, 2048, 2048]⟩ : Shape).Idx

/-- Coordinate d of the summed point n of batch b. -/
def pt (e a : PtIdx → ℝ) (b : Fin 8) (n : Fin 2048) (d : Fin 2) : ℝ := e (ix3 b n d) + a (ix3 b n d)

/-- Squared distance between the summed points i and j of batch b. -/
def dist2 (e a : PtIdx → ℝ) (b : Fin 8) (i j : Fin 2048) : ℝ :=
  (pt e a b i 0 - pt e a b j 0) * (pt e a b i 0 - pt e a b j 0)
    + (pt e a b i 1 - pt e a b j 1) * (pt e a b i 1 - pt e a b j 1)

/-- What the pair (b, i, j) contributes. -/
def pairReal (e a : PtIdx → ℝ) (mk : MaskIdx → BitVec 32) (b : Fin 8) (i j : Fin 2048) : ℝ :=
  if mk (ix3 b i j) = 1#32 then 1 - Real.exp (dist2 e a b i j * (-1 / 10)) else 0

/-- The result: every pair's contribution, summed. -/
def total (e a : PtIdx → ℝ) (mk : MaskIdx → BitVec 32) : ℝ :=
  ∑ b : Fin 8, ∑ i : Fin 2048, ∑ j : Fin 2048, pairReal e a mk b i j

end Cert.PairSum

end
-- ==== Proof.LibIndexSums.lean ====
/-
  Finite sums over the index set of a small array, taken coordinate by coordinate, and the inclusion of the reals in the
  extended reals carried through a finite sum.  A rank-1 index set is its coordinate's range and a rank-3 index set is the
  product of its three coordinates' ranges, so a sum over either is an iterated sum over the coordinates (the rank-2 case
  is the library's `sum_idx2`).
-/
import Idealize.ShloMosaic.PureOps.Ideal
import Idealize.ShloMosaic.Lib.ValueIdx

noncomputable section

namespace Cert.IndexSums

open Idealize.ShloMosaic Idealize.ShloMosaic.ValueIdx

/-- A sum over a rank-1 index set is the sum over its one coordinate. -/
theorem sum_idx1 {M : Type*} [AddCommMonoid M] {n : Nat} (f : (⟨1, ![n]⟩ : Shape).Idx → M) :
    ∑ q, f q = ∑ b : Fin n, f (ix1 b) := by
  let eqv : (⟨1, ![n]⟩ : Shape).Idx ≃ Fin n :=
    ⟨fun q => q 0, fun b => ix1 b, fun q => (eq_ix1 q).symm, fun _ => rfl⟩
  exact (Equiv.sum_comp eqv.symm f).symm

/-- A rank-3 index set is the product of its three coordinate ranges … -/
def idxEquiv3 {n0 n1 n2 : Nat} : (⟨3, ![n0, n1, n2]⟩ : Shape).Idx ≃ Fin n0 × Fin n1 × Fin n2 where
  toFun q := (q 0, q 1, q 2)
  invFun p := ix3 p.1 p.2.1 p.2.2
  left_inv q := (eq_ix3 q).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ q, f q = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The inclusion of the reals in the extended reals commutes with a finite sum. -/
theorem coe_sum {ι : Type*} (s : Finset ι) (f : ι → ℝ) :
    ((∑ x ∈ s, f x : ℝ) : EReal) = ∑ x ∈ s, ((f x : ℝ) : EReal) := by
  classical
  induction s using Finset.induction_on with
  | empty => rw [Finset.sum_empty, Finset.sum_empty, EReal.coe_zero]
  | insert x s hx ih => rw [Finset.sum_insert hx, Finset.sum_insert hx, EReal.coe_add, ih]

end Cert.IndexSums

end
-- ==== Proof.RefSide.lean ====
/-
  The reference program's result, read index by index at the ideal instance.

  On real-valued inputs e, a and an integer mask the reference computes, pair by pair, the difference
  ((e[b,i,d] - e[b,j,d]) + a[b,i,d]) - a[b,j,d] of the two summed points' coordinates, its square summed over the two
  coordinates d, the exponential of minus that squared distance over 10, and 1 minus the exponential where the mask is 1
  (0 elsewhere); the result is the sum of these contributions over every (b, i, j). Every step stays inside the reals,
  so the extended-real value of the result is the real number Cert.PairSum.total.
-/
import proofs.«134631_j52716428591387_2_alg».proof.Proof.Gen.ReferenceIdeal.Read
import proofs.«134631_j52716428591387_2_alg».proof.Proof.PairSum
import proofs.«134631_j52716428591387_2_alg».proof.Proof.LibIndexSums

noncomputable section

namespace Cert.ReferenceIdeal.RefValue

open Cert.ReferenceIdeal Cert.ReferenceIdeal.Gen Cert.ReferenceIdeal.Read Cert.PairSum
open Idealize.ShloMosaic Idealize.ShloMosaic.ValueIdx Cert.IndexSums
open scoped BigOperators

/-! ## The three float literals -/

/-- The pattern 0x41200000 is the real number 10. -/
theorem lit_ten : Ideal.ofBits .f32 0x41200000#32 = ((10 : ℝ) : EReal) := by
  simp [Ideal.ofBits, Ideal.ieee, -EReal.coe_mul]; norm_num

/-- The pattern 0x3F800000 is the real number 1. -/
theorem lit_one : Ideal.ofBits .f32 0x3F800000#32 = ((1 : ℝ) : EReal) := by
  simp [Ideal.ofBits, Ideal.ieee, -EReal.coe_mul]; norm_num

/-- The zero pattern is the real number 0. -/
theorem lit_zero : Ideal.ofBits .f32 0x00000000#32 = ((0 : ℝ) : EReal) := by
  rw [Ideal.ofBits_zero_f32, EReal.coe_zero]

/-! ## Where the broadcasts read -/

/-- The two broadcasts of the row point read coordinate d of point i of batch b. -/
theorem idx_row (b : Fin 8) (i j : Fin 2048) (d : Fin 2) :
    idx_main_v0 (idx_main_v2 (ix4 b i j d)) = ix3 b i d := by
  funext a; match a with | ⟨0, _⟩ => rfl | ⟨1, _⟩ => rfl | ⟨2, _⟩ => rfl

/-- The two broadcasts of the column point read coordinate d of point j of batch b. -/
theorem idx_col (b : Fin 8) (i j : Fin 2048) (d : Fin 2) :
    idx_main_v1 (idx_main_v3 (ix4 b i j d)) = ix3 b j d := by
  funext a; match a with | ⟨0, _⟩ => rfl | ⟨1, _⟩ => rfl | ⟨2, _⟩ => rfl

/-- The sum over the last axis reads the pair (b, i, j) at each coordinate k. -/
theorem idx_last (b : Fin 8) (i j : Fin 2048) (k : Fin 2) :
    idx_main_v12 (ix3 b i j) k = ix4 b i j k := by
  funext a; match a with | ⟨0, _⟩ => rfl | ⟨1, _⟩ => rfl | ⟨2, _⟩ => rfl | ⟨3, _⟩ => rfl

/-! ## One coordinate's difference -/

/-- The difference the reference forms at (b, i, j, d): ((e_i - e_j) + a_i) - a_j at coordinate d. -/
theorem diff_apply (x0 x1 : (⟨S8x2048x2, .f32⟩ : BufTy).Contents (Elt Ideal)) (b : Fin 8) (i j : Fin 2048) (d : Fin 2) :
    val_main_v10 (F := Ideal) x0 x1 (ix4 b i j d)
      = ((x0 (ix3 b i d) - x0 (ix3 b j d)) + x1 (ix3 b i d)) - x1 (ix3 b j d) := by
  rw [val_main_v10_apply, val_main_v7_apply, val_main_v4_apply, val_main_v2_apply, val_main_v0_apply,
    val_main_v3_apply, val_main_v1_apply, val_main_v6_apply, val_main_v5_apply, val_main_v9_apply, val_main_v8_apply]
  rw [show idx_main_v5 (idx_main_v6 (ix4 b i j d)) = ix3 b i d from idx_row b i j d,
    show idx_main_v8 (idx_main_v9 (ix4 b i j d)) = ix3 b j d from idx_col b i j d, idx_row, idx_col]
  rfl

/-! ## The squared distance of one pair -/

/-- On real inputs the sum over the two coordinates is the squared distance between the summed points. -/
theorem dist_apply (e a : PtIdx → ℝ) (b : Fin 8) (i j : Fin 2048) :
    val_main_v12 (F := Ideal) (fun q => ((e q : ℝ) : EReal)) (fun q => ((a q : ℝ) : EReal)) (ix3 b i j)
      = ((dist2 e a b i j : ℝ) : EReal) := by
  rw [val_main_v12_apply, val_main_cst_apply, Ideal.ofBits_def, Ideal.ofBits_zero_f32, zero_add, Fin.sum_univ_two,
    idx_last, idx_last, val_main_v11_apply, val_main_v11_apply, diff_apply, diff_apply, Ideal.mulf_def, Ideal.mulf_def]
  simp only [← EReal.coe_sub, ← EReal.coe_add, ← EReal.coe_mul]
  rw [EReal.coe_eq_coe_iff]
  unfold dist2 pt
  ring

/-! ## One pair's contribution -/

/-- Where the mask is 1 the reference's term is 1 minus the exponential of minus the squared distance over 10. -/
theorem on_apply (e a : PtIdx → ℝ) (b : Fin 8) (i j : Fin 2048) :
    val_main_v18 (F := Ideal) (fun q => ((e q : ℝ) : EReal)) (fun q => ((a q : ℝ) : EReal)) (ix3 b i j)
      = ((1 - Real.exp (dist2 e a b i j * (-1 / 10)) : ℝ) : EReal) := by
  rw [val_main_v18_apply, val_main_v17_apply, val_main_cst_1_apply, val_main_v16_apply, val_main_v15_apply,
    val_main_v13_apply, val_main_v14_apply, val_main_cst_0_apply, dist_apply, Ideal.ofBits_def, Ideal.ofBits_def,
    lit_one, lit_ten, Ideal.hostUnary_exp_def, Ideal.hostDivf_def, Ideal.hostNegf_def, Ideal.negf_def, Ideal.subf_def,
    Ideal.div_coe (by norm_num : (10 : ℝ) ≠ 0), ← EReal.coe_neg, ← EReal.coe_mul, Ideal.exp_coe, ← EReal.coe_sub,
    EReal.coe_eq_coe_iff]
  congr 2
  ring

/-- The broadcast integer 1 the mask is compared with. -/
theorem one_apply (q : S8x2048x2048.Idx) : val_main_v19 (F := Ideal) q = 1#32 := by
  rw [val_main_v19_apply, val_main_c_apply]

/-- Where the mask is not 1 the reference's term is 0. -/
theorem off_apply (q : S8x2048x2048.Idx) : val_main_call0_v1 (F := Ideal) q = ((0 : ℝ) : EReal) := by
  rw [val_main_call0_v1_apply, val_main_call0_v0_apply, val_main_cst_2_apply, Ideal.ofBits_def, lit_zero]

/-- The reference's term at the pair (b, i, j) is that pair's contribution. -/
theorem ref_pair (e a : PtIdx → ℝ) (mk : MaskIdx → BitVec 32) (b : Fin 8) (i j : Fin 2048) :
    val_main_v21 (F := Ideal) (fun q => ((e q : ℝ) : EReal)) (fun q => ((a q : ℝ) : EReal)) mk (ix3 b i j)
      = ((pairReal e a mk b i j : ℝ) : EReal) := by
  rw [val_main_v21_apply, val_main_v20_apply, one_apply]
  unfold pairReal
  by_cases h : mk (ix3 b i j) = 1#32
  · rw [IntOp.cmpi_eq.mpr h, select_one, if_pos h, on_apply]
  · rw [eq_zero_of_ne_one (fun hc => h (IntOp.cmpi_eq.mp hc)), select_zero, if_neg h, off_apply]

/-! ## The result -/

/-- On real inputs the reference's result is the sum of every pair's contribution. -/
theorem ref_total (e a : Cert.PairSum.PtIdx → ℝ) (mk : Cert.PairSum.MaskIdx → BitVec 32) :
    Cert.ReferenceIdeal.Read.val_main_v22 (F := Ideal) (fun i => ((e i : ℝ) : EReal)) (fun i => ((a i : ℝ) : EReal)) mk ValueIdx.ix0
      = ((Cert.PairSum.total e a mk : ℝ) : EReal) := by
  rw [val_main_v22_apply, val_main_cst_3_apply, Ideal.ofBits_def, Ideal.ofBits_zero_f32, zero_add, sum_idx3]
  unfold total
  rw [coe_sum]
  refine Finset.sum_congr rfl fun b _ => ?_
  rw [coe_sum]
  refine Finset.sum_congr rfl fun i _ => ?_
  rw [coe_sum]
  refine Finset.sum_congr rfl fun j _ => ?_
  exact ref_pair e a mk b i j

end Cert.ReferenceIdeal.RefValue

end
-- ==== Proof.KernelTotal.lean ====
import proofs.«134631_j52716428591387_2_alg».proof.Proof.OutputArray
import proofs.«134631_j52716428591387_2_alg».proof.Proof.RefSide
import Idealize.ShloMosaic.PureOps.IdealRules

noncomputable section

open Idealize.ShloMosaic Idealize.ShloMosaic.TcCoe Idealize.SL.Sem Idealize.ShloMosaic.ValueIdx
open Idealize.ShloMosaic.Pipeline (Dat)

/-!
  The kernel's result on real inputs.

  With real entries e, a in the two float arguments, every block entry the body reads is a real, the named constant is
  -1/10, and each pair term is the real contribution of its pair. A tile sum is then the contributions of the tile's 512
  rows against all 2048 columns; the four tile sums of a batch add up to the batch's rows against all columns; and the
  host's closing sum over the eight batches gives the sum over every pair.
-/
namespace Cert.KernelIdeal.Total

open Cert.KernelIdeal Cert.KernelIdeal.Gen Cert.KernelIdeal.Output Cert.PairSum
open Cert.ReferenceIdeal.RefValue (lit_one lit_zero)
open Cert.IndexSums (coe_sum)

/-- The named constant is -1/10. -/
theorem named_val : Named.named (F := Ideal) κ "neg_inv_10" (φ := .f32) 0xBDCCCCCD#32 = ((-1 / 10 : ℝ) : EReal) :=
  IdealRules.named_const.ideal_named_scalar _ _ _ _ rfl

/-- On real coordinates the pair term is a real: the pair's contribution where the mask word is 1, zero elsewhere. -/
theorem pairE_coe (p0 q0 p1 q1 : ℝ) (w : BitVec 32) :
    Tile.pairE (p0 : EReal) (q0 : EReal) (p1 : EReal) (q1 : EReal) w
      = ((if w = 1#32 then 1 - Real.exp (((p0 - q0) * (p0 - q0) + (p1 - q1) * (p1 - q1)) * (-1 / 10)) else 0 : ℝ) : EReal) := by
  unfold Tile.pairE
  by_cases h : w = 1#32
  · rw [IntOp.cmpi_eq.mpr h, select_one, if_pos h, named_val, lit_one]
    simp only [← EReal.coe_sub, ← EReal.coe_mul, ← EReal.coe_add, Ideal.exp_coe]
  · rw [eq_zero_of_ne_one (fun hc => h (IntOp.cmpi_eq.mp hc)), select_zero, if_neg h, lit_zero]

/-- Row r of tile it, as a row of the whole batch. -/
def rowOf (it : Fin 4) (r : Fin 512) : Fin 2048 := ⟨512 * it.val + r.val, by omega⟩

/-- The 2048 rows are the 4 tiles' 512 rows. -/
theorem sum_rows (f : Fin 2048 → ℝ) : ∑ i : Fin 2048, f i = ∑ it : Fin 4, ∑ r : Fin 512, f (rowOf it r) := by
  rw [← Equiv.sum_comp (finProdFinEquiv : Fin 4 × Fin 512 ≃ Fin 2048) f, Fintype.sum_prod_type]
  refine Finset.sum_congr rfl fun it _ => Finset.sum_congr rfl fun r _ => congrArg f (Fin.ext ?_)
  show r.val + 512 * it.val = 512 * it.val + r.val
  omega

section RealInputs

variable (m : (ℓ : Loc nD τ sig) → Buf (Elt Ideal) ℓ) (c : Dev nD) (e a : PtIdx → ℝ)

/-- An entry of the summed points is the real summed coordinate. -/
theorem summed_entry (he : m ((c : Thread nD τ).loc main_arg0) = fun i => ((e i : ℝ) : EReal))
    (ha : m ((c : Thread nD τ).loc main_arg1) = fun i => ((a i : ℝ) : EReal)) (b : Fin 8) (n : Fin 2048) (d : Fin 2) :
    (V m c main_v0 : S8x2048x2.Idx → EReal) (ix3 b n d) = ((pt e a b n d : ℝ) : EReal) := by
  have h := congrFun (Blocks.summed_eq m c) (ix3 b n d)
  rw [h, addf_apply, he, ha]
  unfold pt
  rw [EReal.coe_add]

/-- An entry of the transposed summed points is the same coordinate, with the last two indices exchanged. -/
theorem transposed_entry (he : m ((c : Thread nD τ).loc main_arg0) = fun i => ((e i : ℝ) : EReal))
    (ha : m ((c : Thread nD τ).loc main_arg1) = fun i => ((a i : ℝ) : EReal)) (b : Fin 8) (d : Fin 2) (n : Fin 2048) :
    (V m c main_v1 : S8x2x2048.Idx → EReal) (ix3 b d n) = ((pt e a b n d : ℝ) : EReal) := by
  have h := congrFun (Blocks.transposed_eq m c) (ix3 b d n)
  rw [h, transpose_ix3_021_apply, addf_apply, he, ha]
  unfold pt
  rw [EReal.coe_add]

/-- The tile sum of point t (batch b, tile it) is the real sum of the contributions of the tile's rows against all columns. -/
theorem tileSum_eq (he : m ((c : Thread nD τ).loc main_arg0) = fun i => ((e i : ℝ) : EReal))
    (ha : m ((c : Thread nD τ).loc main_arg1) = fun i => ((a i : ℝ) : EReal)) (t : Fin cfg0.N) (b : Fin 8) (it : Fin 4) (hb : b.val = t.val / 4) (hit : it.val = t.val % 4) :
    tileSum m c t
      = ((∑ r : Fin 512, ∑ j : Fin 2048, pairReal e a (m ((c : Thread nD τ).loc main_arg2)) b (rowOf it r) j : ℝ) : EReal) := by
  unfold tileSum
  rw [coe_sum]
  refine Finset.sum_congr rfl fun r _ => ?_
  rw [coe_sum]
  refine Finset.sum_congr rfl fun j _ => ?_
  have hr : ((rowOf it r : Fin 2048)).val = 512 * (t.val % 4) + r.val := by show 512 * it.val + r.val = _; rw [hit]
  rw [Blocks.rows_entry m c t r (0 : Fin 2) (ix3 b (rowOf it r) (0 : Fin 2)) hb hr rfl,
    Blocks.rows_entry m c t r (1 : Fin 2) (ix3 b (rowOf it r) (1 : Fin 2)) hb hr rfl,
    Blocks.cols_entry m c t (0 : Fin 2) j (ix3 b (0 : Fin 2) j) hb rfl rfl,
    Blocks.cols_entry m c t (1 : Fin 2) j (ix3 b (1 : Fin 2) j) hb rfl rfl,
    Blocks.mask_entry m c t r j (ix3 b (rowOf it r) j) hb hr rfl,
    summed_entry m c e a he ha, summed_entry m c e a he ha, transposed_entry m c e a he ha, transposed_entry m c e a he ha,
    V_main_arg2, pairE_coe]
  rfl

/-- The chain of tile sums after batch b's last point is the real sum of the batch's rows against all columns. -/
theorem batch_eq (he : m ((c : Thread nD τ).loc main_arg0) = fun i => ((e i : ℝ) : EReal))
    (ha : m ((c : Thread nD τ).loc main_arg1) = fun i => ((a i : ℝ) : EReal)) (b : Fin 8) :
    accVal (tileSumN m c) (4 * b.val + 3)
      = ((∑ i : Fin 2048, ∑ j : Fin 2048, pairReal e a (m ((c : Thread nD τ).loc main_arg2)) b i j : ℝ) : EReal) := by
  have hN : cfg0.N = 32 := N_0
  have hb : b.val < 8 := b.isLt
  have ts : ∀ (k : Fin 4), tileSumN m c (4 * b.val + k.val)
      = ((∑ r : Fin 512, ∑ j : Fin 2048, pairReal e a (m ((c : Thread nD τ).loc main_arg2)) b (rowOf k r) j : ℝ) : EReal) := by
    intro k
    have hk : k.val < 4 := k.isLt
    have hlt : 4 * b.val + k.val < cfg0.N := by rw [hN]; omega
    unfold tileSumN
    rw [dif_pos hlt]
    exact tileSum_eq m c e a he ha ⟨4 * b.val + k.val, hlt⟩ b k (by show b.val = (4 * b.val + k.val) / 4; omega)
      (by show k.val = (4 * b.val + k.val) % 4; omega)
  rw [accVal_last, sum_rows, Fin.sum_univ_four]
  have t0 := ts 0
  have t1 := ts 1
  have t2 := ts 2
  have t3 := ts 3
  rw [show 4 * b.val + (0 : Fin 4).val = 4 * b.val from rfl] at t0
  rw [show 4 * b.val + (1 : Fin 4).val = 4 * b.val + 1 from rfl] at t1
  rw [show 4 * b.val + (2 : Fin 4).val = 4 * b.val + 2 from rfl] at t2
  rw [show 4 * b.val + (3 : Fin 4).val = 4 * b.val + 3 from rfl] at t3
  rw [t0, t1, t2, t3, ← EReal.coe_add, ← EReal.coe_add, ← EReal.coe_add]

end RealInputs

end Cert.KernelIdeal.Total
end
-- ==== Proof.KernelRun.lean ====
import proofs.«134631_j52716428591387_2_alg».proof.Proof.KernelTotal
import Idealize.ShloMosaic.Lib.Pipeline.FrameSuffix

noncomputable section

open Idealize.ShloMosaic Idealize.ShloMosaic.TcCoe Idealize.SL.Sem Idealize.ShloMosaic.ValueIdx
open Idealize.ShloMosaic.Pipeline (Dat)

/-!
  The kernel's run, with its result named.

  After the grid the host takes entry (b, 0, 0) of each of the eight slabs, lines the eight numbers up, and adds them to zero.
  Each such entry is its batch's accumulated sum, so on real inputs the result is the sum over every pair.
-/
namespace Cert.KernelIdeal.Result

open Cert.KernelIdeal Cert.KernelIdeal.Gen Cert.KernelIdeal.Output Cert.KernelIdeal.Total Cert.PairSum
open Cert.IndexSums (coe_sum sum_idx1)

/-- The host's closing steps on the grid's output array: entry (b, 0, 0) of every slab, the eight entries added to zero. -/
def closing (X : S8x8x128.Idx → EReal) : S_.Idx → EReal :=
  Host.reduceAdd (F := Ideal)
    (shapeCast S8 (extractStridedSlice S8x1x1 ![0, 0, 0] X Facts₀.slices_S8x8x128_S8x1x1_0_0_0) Facts₀.shapeCasts_S8x1x1_S8)
    (constant (F := Ideal) S_ .f32 0x00000000#32) Facts₀.reducesTo_S8_S_d0 Facts₀.h_S_

/-- The host's sum of a vector of eight into a scalar, from zero: the sum of its eight entries. -/
theorem sum8 (y0 : S8.Idx → EReal) :
    Host.reduceAdd (F := Ideal) y0 (constant (F := Ideal) S_ .f32 0x00000000#32) Facts₀.reducesTo_S8_S_d0 Facts₀.h_S_ ix0
      = ∑ b : Fin 8, y0 (ix1 b) := by
  simp only [Host.reduceAdd, Ideal.hostReduceAdd_def]
  rw [Ideal.hostReduceAdd_total Facts₀.reducesTo_S8_S_d0 (fun b => b.elim0) y0 _ ix0]
  rw [constant_apply, Ideal.ofBits_zero_f32, zero_add]
  exact sum_idx1 y0

/-- Entry b of the lined-up vector is entry (b, 0, 0) of the array. -/
theorem corner_apply (X : S8x8x128.Idx → EReal) (b : Fin 8) :
    shapeCast S8 (extractStridedSlice S8x1x1 ![0, 0, 0] X Facts₀.slices_S8x8x128_S8x1x1_0_0_0) Facts₀.shapeCasts_S8x1x1_S8 (ix1 b)
      = X (ix3 b (0 : Fin 8) (0 : Fin 128)) :=
  (shapeCast_apply _ Facts₀.shapeCasts_S8x1x1_S8 (ix1 b) (ix3 b (0 : Fin 1) (0 : Fin 1)) (by
    rw [Shape.rowMajor_val_three, Shape.rowMajor_val_one]
    show (b.val * 1 + 0) * 1 + 0 = b.val
    omega)).trans
  (extractStridedSlice_apply _ X Facts₀.slices_S8x8x128_S8x1x1_0_0_0 _ (ix3 b (0 : Fin 8) (0 : Fin 128)) (fun a => match a with
    | ⟨0, _⟩ => by show b.val = 0 + b.val; omega
    | ⟨1, _⟩ => rfl
    | ⟨2, _⟩ => rfl))

/-- The closing steps give the sum over the slabs of their (0, 0) entries. -/
theorem closing_apply (X : S8x8x128.Idx → EReal) : closing X ix0 = ∑ b : Fin 8, X (ix3 b (0 : Fin 8) (0 : Fin 128)) := by
  unfold closing
  rw [sum8]
  exact Finset.sum_congr rfl fun b _ => corner_apply X b

variable (m : (ℓ : Loc nD τ sig) → Buf (Elt Ideal) ℓ) (ρ : Dev nD → PrngReg)

/-- What the lines after the grid leave in the result: the closing steps applied to the array the grid left. -/
theorem tail_eq (c : Dev nD) :
    Pipeline.afterTail₀ cfgs (dats m) 0 (V0 m) [hostOps1] c main_v5 = closing (outArr m c) := by
  have hA : Pipeline.withArrays (cfgs 0).spec c (V0 m c) (fun w => (dats m 0 c).arrAt w (cfgs 0).N) (Proc.devRef .tc main_v2)
      = outArr m c :=
    (Pipeline.withArrays_arr spec0 launch0.win.arr_inj c _ _ 3).trans (final_out m c)
  unfold Pipeline.afterTail₀
  show StableHlo.after hostOps1 _ (Proc.devRef .tc main_v5) = _
  after_results
  rw [hA]
  rfl

/-- On real inputs the kernel's result is the sum of every pair's contribution. -/
theorem value_eq (c : Dev nD) (e a : PtIdx → ℝ)
    (he : m ((c : Thread nD τ).loc main_arg0) = fun i => ((e i : ℝ) : EReal))
    (ha : m ((c : Thread nD τ).loc main_arg1) = fun i => ((a i : ℝ) : EReal)) (i : S_.Idx) :
    closing (outArr m c) i = ((total e a (m ((c : Thread nD τ).loc main_arg2)) : ℝ) : EReal) := by
  rw [eq_ix0 i, closing_apply]
  unfold total
  rw [coe_sum]
  refine Finset.sum_congr rfl fun b _ => ?_
  exact batch_eq m c e a he ha b

/-- Every weakly fair execution of the idealized kernel terminates with the result at the closing steps of the grid's array,
    and the three arguments unchanged. -/
theorem run : θ_run defs (onTc (τ := τ) (main (F := Ideal))) ⟨m, fun _ => 0, ρ⟩ (fun r => ∀ c : Dev nD,
      r.2.mem ((c.tc : Thread nD τ).loc main_v5) = closing (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Result
end
-- ==== Proof.FiniteInputs.lean ====
/-
  The precondition, read back. It says |x0| < +∞ and |x1| < +∞ at every index; an extended real whose absolute value
  is below +∞ is neither +∞ nor -∞, so it is a real number. Hence both float inputs are arrays of reals.
-/
import proofs.«134631_j52716428591387_2_alg».proof.Proof.Gen.Pre_finite_inputs
import proofs.«134631_j52716428591387_2_alg».proof.Proof.PairSum
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx

/-- The word 0x7F800000 denotes +∞. -/
theorem inf_word : Ideal.ofBits .f32 0x7F800000#32 = (⊤ : EReal) := by
  simp [Ideal.ofBits, Ideal.ieee]

/-- An extended real with |x| < +∞ is a real: the two infinities have |x| = +∞. -/
theorem real_of_abs_lt (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- The result of a reduction over all three axes has a single index. -/
instance : Subsingleton Cert.Pre_finite_inputs.S_.Idx := ⟨fun a b => funext fun d => d.elim0⟩

open Cert.Pre_finite_inputs in
/-- If the conjunction over all indices of |x| < +∞ holds, every entry of x is a real. -/
theorem entry_real [Facts] (x : Cert.PairSum.PtIdx → EReal)
    (h : Host.reduce IntOp.andi
          (cmpf .olt (Host.absf (F := Ideal) (s := S8x2048x2) (φ := .f32) x)
            (broadcastInDim S8x2048x2 ![] Facts.bcast_S_S8x2048x2 (constant (F := Ideal) S_ .f32 0x7F800000#32)))
          (constantI S_ 1 1#1) Facts.reducesTo_S8x2048x2_S_d0_1_2 Facts.h_S_ ix0 = 1#1)
    (i : Cert.PairSum.PtIdx) : ∃ r : ℝ, x i = (r : EReal) := by
  have hi := Host.reduce_andi_all _ _ _ _ _ h i
  refine real_of_abs_lt (x i) ?_
  rw [← inf_word]
  exact hi

/-- An array of extended reals whose entries are all reals is the coercion of an array of reals. -/
theorem exists_real_array (x : Cert.PairSum.PtIdx → EReal) (hx : ∀ i, ∃ r : ℝ, x i = (r : EReal)) :
    ∃ e : Cert.PairSum.PtIdx → ℝ, x = fun i => ((e i : ℝ) : EReal) := by
  choose e he using hx
  exact ⟨e, funext he⟩

/-- The precondition holds only at inputs whose two float arrays consist of reals. -/
theorem real_of_pre [Cert.Pre_finite_inputs.Facts] (x0 x1 : Cert.PairSum.PtIdx → EReal) (x2 : Cert.PairSum.MaskIdx → BitVec 32)
    (h : Cert.Pre_finite_inputs.fn (F := Ideal) x0 x1 x2 = fun _ => 1#1) :
    (∃ e : Cert.PairSum.PtIdx → ℝ, x0 = fun i => ((e i : ℝ) : EReal)) ∧ (∃ a : Cert.PairSum.PtIdx → ℝ, x1 = fun i => ((a i : ℝ) : EReal)) := by
  have h0 := congrFun h ix0
  dsimp only [Cert.Pre_finite_inputs.fn] at h0
  obtain ⟨ha, hb⟩ := IntOp.andi_eq_one.1 h0
  exact ⟨exists_real_array x0 (entry_real x0 ha), exists_real_array x1 (entry_real x1 hb)⟩

end Cert.FiniteInputs

end
-- ==== Proof.lean ====
/-
  The kernel and its reference compute the same number.

  Inputs: two float arrays e, a of shape [8, 2048, 2] and an integer mask of shape [8, 2048, 2048]. With s = e + a, both
  programs return the sum, over every batch b and every pair of points (i, j) with mask[b, i, j] = 1, of
  1 - exp(-|s[b,i] - s[b,j]|² / 10).

  The kernel forms s and its transpose first, then walks a grid of 8 × 4 points: point t takes the 512 rows of tile t % 4
  of batch t / 4 against all 2048 columns, adds the tile's masked terms into an accumulator that is reset at each batch's
  first tile, and writes the accumulator to the batch's output slab at its last tile; finally the eight slabs' first
  entries are added. It multiplies the squared distance by a constant named -1/10.
  The reference forms ((e_i - e_j) + a_i) - a_j, squares and sums over the two coordinates, negates, divides by 10,
  and sums the masked terms over all (b, i, j) at once.

  Over the extended reals the two agree once the float inputs are finite, which the precondition says: then every entry is
  a real, the two groupings of the difference coincide, multiplying by -1/10 is negating and dividing by 10, and finite
  sums of reals may be regrouped by tiles and batches. Both results equal the real number Cert.PairSum.total.

  The three frame claims are the generated frame runs; the one rewrite of the idealization (the named constant) is its
  rule's statement.
-/
import proofs.«134631_j52716428591387_2_alg».proof.Defs
import proofs.«134631_j52716428591387_2_alg».proof.Proof.Gen.Kernel
import proofs.«134631_j52716428591387_2_alg».proof.Proof.Gen.Kernel.Frame
import proofs.«134631_j52716428591387_2_alg».proof.Proof.Gen.KernelIdeal
import proofs.«134631_j52716428591387_2_alg».proof.Proof.Gen.KernelIdeal.Frame
import proofs.«134631_j52716428591387_2_alg».proof.Proof.Gen.ReferenceIdeal
import proofs.«134631_j52716428591387_2_alg».proof.Proof.Gen.ReferenceIdeal.Run
import proofs.«134631_j52716428591387_2_alg».proof.Proof.Gen.ReferenceIdeal.Read
import proofs.«134631_j52716428591387_2_alg».proof.Proof.Gen.Pre_finite_inputs
import proofs.«134631_j52716428591387_2_alg».proof.Proof.KernelRun
import proofs.«134631_j52716428591387_2_alg».proof.Proof.RefSide
import proofs.«134631_j52716428591387_2_alg».proof.Proof.FiniteInputs
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization's one rewrite: the constant is named -1/10, and that is its value on the extended reals. -/
theorem preserves : Cert.preserves_Kernel_KernelIdeal :=
  IdealRules.named_const.statement Cert.KernelIdeal.κ "neg_inv_10" .f32 0xBDCCCCCD#32 ((-1 / 10 : ℝ) : EReal) rfl

/-- On finite inputs both programs end with the sum of every pair's contribution. -/
theorem algebraic : Cert.algebraic_KernelIdeal_ReferenceIdeal := by
  intro m ρ m' ρ' hpre hagree
  refine ⟨fun c => Cert.KernelIdeal.Result.closing (Cert.KernelIdeal.Output.outArr m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2]
  obtain ⟨⟨e, he⟩, ⟨a, ha⟩⟩ := Cert.FiniteInputs.real_of_pre _ _ _ (hpre c)
  funext i
  show _ = Cert.KernelIdeal.Result.closing (Cert.KernelIdeal.Output.outArr m c) i
  rw [Cert.KernelIdeal.Result.value_eq m c e a he ha i, he, ha, ValueIdx.eq_ix0 i]
  exact Cert.ReferenceIdeal.RefValue.ref_total e a _

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
